-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S64x1024x1024 : Shape := ⟨3, ![64, 1024, 1024]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel

variable [Facts]

def fn {F : FTy → Type} [FloatOps F] (main_arg0 : FVec F S64x1024x64 .f32) (main_arg1 : FVec F S64x1024x64 .f32) (main_arg2 : FVec F S64x1024x64 .f32) (main_arg3 : IVec S64x1024x1024 1) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  let main_v4 : FVec F S64x1024x64 .f32 := Host.absf main_arg1
  let main_cst_0 : FVec F S_ .f32 := constant S_ .f32 0x7F800000#32
  let main_v5 : FVec F S64x1024x64 .f32 := broadcastInDim S64x1024x64 ![] bcast_S_S64x1024x64 main_cst_0
  let main_v6 : IVec S64x1024x64 1 := cmpf .olt main_v4 main_v5
  let main_c_1 : IVec S_ 1 := constantI S_ 1 1#1
  let main_v7 : IVec S_ 1 := (fun x v => Host.reduce IntOp.andi x v reducesTo_S64x1024x64_S_d0_1_2 h_S_) main_v6 main_c_1
  let main_v8 : IVec S_ 1 := andi main_v3 main_v7
  let main_v9 : FVec F S64x1024x64 .f32 := Host.absf main_arg2
  let main_cst_2 : FVec F S_ .f32 := constant S_ .f32 0x7F800000#32
  let main_v10 : FVec F S64x1024x64 .f32 := broadcastInDim S64x1024x64 ![] bcast_S_S64x1024x64 main_cst_2
  let main_v11 : IVec S64x1024x64 1 := cmpf .olt main_v9 main_v10
  let main_c_3 : IVec S_ 1 := constantI S_ 1 1#1
  let main_v12 : IVec S_ 1 := (fun x v => Host.reduce IntOp.andi x v reducesTo_S64x1024x64_S_d0_1_2 h_S_) main_v11 main_c_3
  let main_v13 : IVec S_ 1 := andi main_v8 main_v12
  main_v13
-- ==== Kernel.lean ====
abbrev S64x1024x64 : Shape := ⟨3, ![64, 1024, 64]⟩
abbrev S64x1024x1024 : Shape := ⟨3, ![64, 1024, 1024]⟩
abbrev S1x1024x64 : Shape := ⟨3, ![1, 1024, 64]⟩
abbrev S1x1024x1024 : Shape := ⟨3, ![1, 1024, 1024]⟩
abbrev S1024x64 : Shape := ⟨2, ![1024, 64]⟩
abbrev S1024x1024 : Shape := ⟨2, ![1024, 1024]⟩
abbrev S64x1024 : Shape := ⟨2, ![64, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S64x1024x1024, .i1⟩
  | .hbm, ⟨4, _⟩ => ⟨S64x1024x1024, .i32⟩
  | .hbm, ⟨5, _⟩ => ⟨S64x1024x64, .f32⟩
  | .hbm, ⟨6, _⟩ => ⟨S64x1024x1024, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x1024, .i32⟩
  | .local _ .vmem, ⟨7, _⟩ => ⟨S1x1024x1024, .i32⟩
  | .local _ .vmem, ⟨8, _⟩ => ⟨S1x1024x64, .f32⟩
  | .local _ .vmem, ⟨9, _⟩ => ⟨S1x1024x64, .f32⟩
  | .local _ .vmem, ⟨10, _⟩ => ⟨S1x1024x1024, .f32⟩
  | .local _ .vmem, ⟨11, _⟩ => ⟨S1x1024x1024, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  natLt_1_32 : 1 < 32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  shapeCasts_S1024x64_S1x1024x64 : S1024x64.ShapeCasts S1x1024x64
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x1024x64.size a
  hwx0_0 : ∀ i : grid0.Coords, EltTy.bits .f32 = 32 ∨ (Rect.block (s := S64x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x1024x64.size a
  hwx0_1 : ∀ i : grid0.Coords, EltTy.bits .f32 = 32 ∨ (Rect.block (s := S64x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x1024x64.size a
  hwx0_2 : ∀ i : grid0.Coords, EltTy.bits .f32 = 32 ∨ (Rect.block (s := S64x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S64x1024x1024.size a
  hwx0_3 : ∀ i : grid0.Coords, EltTy.bits .i32 = 32 ∨ (Rect.block (s := S64x1024x1024) S1x1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S64x1024x64.size a
  hwx0_4 : ∀ i : grid0.Coords, EltTy.bits .f32 = 32 ∨ (Rect.block (s := S64x1024x64) S1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S64x1024x1024.size a
  hwx0_5 : ∀ i : grid0.Coords, EltTy.bits .f32 = 32 ∨ (Rect.block (s := S64x1024x1024) S1x1024x1024.size (cc0_transform_5 i) (hinb0_5 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x1024x64 : Shape := ⟨3, ![64, 1024, 64]⟩
abbrev S64x1024x1024 : Shape := ⟨3, ![64, 1024, 1024]⟩
abbrev S_ : Shape := ⟨0, ![]⟩
abbrev S64x1024 : Shape := ⟨2, ![64, 1024]⟩
abbrev S64x1024x1 : Shape := ⟨3, ![64, 1024, 1]⟩

abbrev nBuf : Space → Nat
  | .hbm => 27
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S64x1024x1024, .i1⟩
  | .hbm, ⟨4, _⟩ => ⟨S64x1024x1024, .f32⟩
  | .hbm, ⟨5, _⟩ => ⟨S_, .f32⟩
  | .hbm, ⟨6, _⟩ => ⟨S64x1024x1024, .f32⟩
  | .hbm, ⟨7, _⟩ => ⟨S64x1024x1024, .f32⟩
  | .hbm, ⟨8, _⟩ => ⟨S_, .f32⟩
  | .hbm, ⟨9, _⟩ => ⟨S_, .f32⟩
  | .hbm, ⟨10, _⟩ => ⟨S64x1024x1024, .f32⟩
  | .hbm, ⟨11, _⟩ => ⟨S64x1024x1024, .f32⟩
  | .hbm, ⟨12, _⟩ => ⟨S_, .f32⟩
  | .hbm, ⟨13, _⟩ => ⟨S64x1024, .f32⟩
  | .hbm, ⟨14, _⟩ => ⟨S_, .f32⟩
  | .hbm, ⟨15, _⟩ => ⟨S64x1024, .f32⟩
  | .hbm, ⟨16, _⟩ => ⟨S64x1024, .f32⟩
  | .hbm, ⟨17, _⟩ => ⟨S64x1024x1, .f32⟩
  | .hbm, ⟨18, _⟩ => ⟨S64x1024x1024, .f32⟩
  | .hbm, ⟨19, _⟩ => ⟨S64x1024x1024, .f32⟩
  | .hbm, ⟨20, _⟩ => ⟨S64x1024x1024, .f32⟩
  | .hbm, ⟨21, _⟩ => ⟨S_, .f32⟩
  | .hbm, ⟨22, _⟩ => ⟨S64x1024, .f32⟩
  | .hbm, ⟨23, _⟩ => ⟨S64x1024x1, .f32⟩
  | .hbm, ⟨24, _⟩ => ⟨S64x1024x1024, .f32⟩
  | .hbm, ⟨25, _⟩ => ⟨S64x1024x1024, .f32⟩
  | .hbm, ⟨26, _⟩ => ⟨S64x1024x64, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S64x1024x1024 : S_.BroadcastsInDim S64x1024x1024 (![] : Fin 0 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  dot_S64x1024x64_S64x1024x64_S64x1024x1024_2_2_1_1_0_0_wf : DotDims.WF S64x1024x64 S64x1024x64 S64x1024x1024 [2] [2] [1] [1] [0] [0]
  dot_S64x1024x1024_S64x1024x64_S64x1024x64_2_1_1_2_0_0_wf : DotDims.WF S64x1024x1024 S64x1024x64 S64x1024x64 [2] [1] [1] [2] [0] [0]

variable [Facts₀]

def dot_S64x1024x64_S64x1024x64_S64x1024x1024_2_2_1_1_0_0 : DotDims S64x1024x64 S64x1024x64 S64x1024x1024 where
  lhsContracting := [2]
  rhsContracting := [2]
  lhsNonContracting := [1]
  rhsNonContracting := [1]
  lhsBatch := [0]
  rhsBatch := [0]
  wf := dot_S64x1024x64_S64x1024x64_S64x1024x1024_2_2_1_1_0_0_wf
def dot_S64x1024x1024_S64x1024x64_S64x1024x64_2_1_1_2_0_0 : DotDims S64x1024x1024 S64x1024x64 S64x1024x64 where
  lhsContracting := [2]
  rhsContracting := [1]
  lhsNonContracting := [1]
  rhsNonContracting := [2]
  lhsBatch := [0]
  rhsBatch := [0]
  wf := dot_S64x1024x1024_S64x1024x64_S64x1024x64_2_1_1_2_0_0_wf

class Facts : Prop extends Facts₀ where

variable [Facts]
-- ==== Proof.Spec.lean ====
/-
  Masked scaled dot-product attention over 64 batches of 1024 queries, 1024 keys and 64 features, as functions
  of extended reals.

  For a query row q, key rows k and a row of mask bits, the SCORE of key j is the fill value where the bit is
  set and otherwise the dot product of q with key j times one eighth (the features are 64, and 8 is their
  square root). The SOFTMAX of a row s is exp (s j - M) / sum over j' of exp (s j' - M), M the greatest entry of
  the row (the fold of max over the row from the float pattern of minus infinity). The attention matrix of a
  batch holds the softmax of each query's score row; the output row of a query is the sum over the keys of its
  attention weights times the value rows.
-/
import Idealize.ShloMosaic.PureOps.Ideal
import Idealize.ShloMosaic.PureOps.Ideal.Laws
import Idealize.ShloMosaic.Lib.ValueIdx
import Mathlib.Data.Finset.Fold

noncomputable section

namespace Cert.Attention

open Idealize.ShloMosaic Idealize.ShloMosaic.ValueIdx

/-- The value written where the mask is set: the float pattern of -1e9. -/
abbrev fill : EReal := Ideal.ofBits .f32 0xCE6E6B28#32
/-- The scale of the scores: the float pattern of 0.125. -/
abbrev scale : EReal := Ideal.ofBits .f32 0x3E000000#32
/-- Where the row maximum starts: the float pattern of minus infinity. -/
abbrev floor : EReal := Ideal.ofBits .f32 0xFF800000#32

/-- The score of key `j` for one query: the fill value where the mask bit is set, else q · k_j / 8. -/
def score (q : Fin 64 → EReal) (k : Fin 1024 → Fin 64 → EReal) (msk : Fin 1024 → BitVec 1) (j : Fin 1024) : EReal :=
  Scalar.select (msk j) fill ((∑ d : Fin 64, q d * k j d) * scale)

/-- The greatest entry of a row. -/
def rowMax (s : Fin 1024 → EReal) : EReal := (Finset.univ : Finset (Fin 1024)).fold max floor s

/-- The softmax of a row, taken after subtracting the row's greatest entry. -/
def softmax (s : Fin 1024 → EReal) (j : Fin 1024) : EReal :=
  Ideal.div (Ideal.exp (s j - rowMax s)) (∑ j' : Fin 1024, Ideal.exp (s j' - rowMax s))

/-- The attention weights: at (b, i, j) the softmax, at key j, of query (b, i)'s score row. -/
def attn (Q K : (⟨3, ![64, 1024, 64]⟩ : Shape).Idx → EReal) (M : (⟨3, ![64, 1024, 1024]⟩ : Shape).Idx → BitVec 1) :
    (⟨3, ![64, 1024, 1024]⟩ : Shape).Idx → EReal := fun i =>
  softmax (score (fun d => Q (ix3 (i 0) (i 1) d)) (fun j d => K (ix3 (i 0) j d)) (fun j => M (ix3 (i 0) (i 1) j))) (i 2)

/-- The output: at (b, i, d) the sum over the keys j of the weight (b, i, j) times value (b, j, d). -/
def out (Q K V : (⟨3, ![64, 1024, 64]⟩ : Shape).Idx → EReal) (M : (⟨3, ![64, 1024, 1024]⟩ : Shape).Idx → BitVec 1) :
    (⟨3, ![64, 1024, 64]⟩ : Shape).Idx → EReal := fun i =>
  ∑ j : Fin 1024, attn Q K M (ix3 (i 0) (i 1) j) * V (ix3 (i 0) j (i 2))

/-- The row maximum is at least where it starts, so taking the maximum with the start once more changes nothing. -/
theorem max_floor_rowMax (s : Fin 1024 → EReal) : max floor (rowMax s) = rowMax s :=
  max_eq_right (by unfold rowMax; exact (Finset.le_fold_max _).mpr (Or.inl le_rfl))

end Cert.Attention

end
-- ==== Proof.LibColumn.lean ====
/-
  A column broadcast along rows, read at an index.

  An `[a, 1]` array broadcast to `[a, b]` repeats each row's one entry across the row: at `(p, c)` it reads the
  operand at `(p, 0)`.
-/
import Idealize.ShloMosaic.Lib.Pipeline.Value
import Idealize.ShloMosaic.Lib.ValueIdx

noncomputable section

namespace Idealize.ShloMosaic.ColumnBroadcast

open Idealize.ShloMosaic Idealize.ShloMosaic.ValueIdx

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnBroadcast

end
-- ==== Proof.LibColumnCast.lean ====
/-
  A vector of length n and the column [n, 1] that holds the same elements: a shape cast between the two keeps
  every element's row-major position, which is i for the vector's element i and i · 1 + 0 for the column's
  element (i, 0). So the cast to a column reads the vector at the row coordinate, and the cast back reads the
  column at (i, 0).
-/
import Idealize.ShloMosaic.Lib.ValueIdx
import Idealize.ShloMosaic.Lib.Pipeline.Value
import Idealize.ShloMosaic.Lib.ValueLayout

namespace Idealize.ShloMosaic.ColumnCast

open Idealize.ShloMosaic Idealize.ShloMosaic.ValueIdx

/-- A vector of length n cast to a column [n, 1] reads, at (i, u), the vector at i, whatever the unit
    coordinate u: the row-major positions are i · 1 + u with u = 0, and i. -/
theorem shapeCast_col_apply {α : Type} {n : ℕ} (x : (⟨1, ![n]⟩ : Shape).Idx → α)
    (h : (⟨1, ![n]⟩ : Shape).ShapeCasts (⟨2, ![n, 1]⟩ : Shape)) (i : Fin n) (u : Fin 1) :
    shapeCast (⟨2, ![n, 1]⟩ : Shape) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [n, 1] cast to a vector of length n reads, at i, the column at (i, 0): the row-major positions
    are i · 1 + 0 and i. -/
theorem shapeCast_uncol_apply {α : Type} {n : ℕ} (x : (⟨2, ![n, 1]⟩ : Shape).Idx → α)
    (h : (⟨2, ![n, 1]⟩ : Shape).ShapeCasts (⟨1, ![n]⟩ : Shape)) (i : Fin n) :
    shapeCast (⟨1, ![n]⟩ : Shape) x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnCast
-- ==== Proof.KernelOps.lean ====
/-
  The body's four non-pointwise steps, each read at one element.

  A product of a [1024, 64] matrix with a [64, 1024] matrix into a zero accumulator is, at (i, j), the sum over
  the 64 shared coordinates d of left (i, d) times right (d, j); the product of a [1024, 1024] matrix with a
  [1024, 64] matrix is, at (i, d), the sum over the 1024 shared coordinates j of left (i, j) times right (j, d).
  The greatest entry of each row of a [1024, 1024] matrix, kept as a column and repeated along the row, is at
  (i, j) the fold of max over row i; the sum of each row likewise is the sum over row i.
-/
import proofs.«174749_j31842887533219_2_alg».proof.Proof.Gen.KernelIdeal.Skeleton
import proofs.«174749_j31842887533219_2_alg».proof.Proof.Spec
import proofs.«174749_j31842887533219_2_alg».proof.Proof.LibColumn
import proofs.«174749_j31842887533219_2_alg».proof.Proof.LibColumnCast
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Row

open Cert.KernelIdeal Cert.KernelIdeal.Gen Idealize.ShloMosaic Idealize.ShloMosaic.ValueIdx Cert.Attention

/-! ## The scores' product: queries [1024, 64] times transposed keys [64, 1024] -/

theorem scoreDot_lhs0 (j : S1024x1024.Idx) (q : dot_S1024x64_S64x1024_S1024x1024_1_0_0_1_n_n.contr.Idx) :
    (dot_S1024x64_S64x1024_S1024x1024_1_0_0_1_n_n.lhsIdx j q 0).val = (j 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem scoreDot_lhs1 (j : S1024x1024.Idx) (q : dot_S1024x64_S64x1024_S1024x1024_1_0_0_1_n_n.contr.Idx) :
    (dot_S1024x64_S64x1024_S1024x1024_1_0_0_1_n_n.lhsIdx j q 1).val = (q ⟨0, by decide⟩).val :=
  dot_S1024x64_S64x1024_S1024x1024_1_0_0_1_n_n.lhsIdx_val_of_single rfl j q
theorem scoreDot_rhs0 (j : S1024x1024.Idx) (q : dot_S1024x64_S64x1024_S1024x1024_1_0_0_1_n_n.contr.Idx) :
    (dot_S1024x64_S64x1024_S1024x1024_1_0_0_1_n_n.rhsIdx j q 0).val = (q ⟨0, by decide⟩).val :=
  dot_S1024x64_S64x1024_S1024x1024_1_0_0_1_n_n.rhsIdx_val_of_single rfl j q
theorem scoreDot_rhs1 (j : S1024x1024.Idx) (q : dot_S1024x64_S64x1024_S1024x1024_1_0_0_1_n_n.contr.Idx) :
    (dot_S1024x64_S64x1024_S1024x1024_1_0_0_1_n_n.rhsIdx j q 1).val = (j 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The scores' product at (i, j): the sum over the 64 features d of left (i, d) times right (d, j). -/
theorem scoreDot_at {φ₁ φ₂ : FTy} (a : FVec Ideal S1024x64 φ₁) (b : FVec Ideal S64x1024 φ₂) (i j : Fin 1024) :
    matmul (F := Ideal) dot_S1024x64_S64x1024_S1024x1024_1_0_0_1_n_n none a b (constant (F := Ideal) S1024x1024 .f32 0x00000000#32) (ix2 i j)
      = ∑ d : Fin 64, a (ix2 i d) * b (ix2 d j) := by
  refine (Ideal.matmul_constant_zero_apply dot_S1024x64_S64x1024_S1024x1024_1_0_0_1_n_n none a b (ix2 i j)).trans ?_
  rw [← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 i j) ((contrEquiv1 dot_S1024x64_S64x1024_S1024x1024_1_0_0_1_n_n 64 rfl rfl).symm k) = ix2 i k := funext fun c => Fin.ext (by
    match c with
    | ⟨0, _⟩ => exact scoreDot_lhs0 _ _
    | ⟨1, _⟩ => exact (scoreDot_lhs1 _ _).trans hk)
  have er : dot_S1024x64_S64x1024_S1024x1024_1_0_0_1_n_n.rhsIdx (ix2 i j) ((contrEquiv1 dot_S1024x64_S64x1024_S1024x1024_1_0_0_1_n_n 64 rfl rfl).symm k) = ix2 k j := funext fun c => Fin.ext (by
    match c with
    | ⟨0, _⟩ => exact (scoreDot_rhs0 _ _).trans hk
    | ⟨1, _⟩ => exact scoreDot_rhs1 _ _)
  rw [el, er]

/-! ## The output's product: weights [1024, 1024] times values [1024, 64] -/

theorem outDot_lhs0 (j : S1024x64.Idx) (q : dot_S1024x1024_S1024x64_S1024x64_1_0_0_1_n_n.contr.Idx) :
    (dot_S1024x1024_S1024x64_S1024x64_1_0_0_1_n_n.lhsIdx j q 0).val = (j 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem outDot_lhs1 (j : S1024x64.Idx) (q : dot_S1024x1024_S1024x64_S1024x64_1_0_0_1_n_n.contr.Idx) :
    (dot_S1024x1024_S1024x64_S1024x64_1_0_0_1_n_n.lhsIdx j q 1).val = (q ⟨0, by decide⟩).val :=
  dot_S1024x1024_S1024x64_S1024x64_1_0_0_1_n_n.lhsIdx_val_of_single rfl j q
theorem outDot_rhs0 (j : S1024x64.Idx) (q : dot_S1024x1024_S1024x64_S1024x64_1_0_0_1_n_n.contr.Idx) :
    (dot_S1024x1024_S1024x64_S1024x64_1_0_0_1_n_n.rhsIdx j q 0).val = (q ⟨0, by decide⟩).val :=
  dot_S1024x1024_S1024x64_S1024x64_1_0_0_1_n_n.rhsIdx_val_of_single rfl j q
theorem outDot_rhs1 (j : S1024x64.Idx) (q : dot_S1024x1024_S1024x64_S1024x64_1_0_0_1_n_n.contr.Idx) :
    (dot_S1024x1024_S1024x64_S1024x64_1_0_0_1_n_n.rhsIdx j q 1).val = (j 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The output's product at (i, d): the sum over the 1024 keys j of left (i, j) times right (j, d). -/
theorem outDot_at {φ₁ φ₂ : FTy} (a : FVec Ideal S1024x1024 φ₁) (b : FVec Ideal S1024x64 φ₂) (i : Fin 1024) (d : Fin 64) :
    matmul (F := Ideal) dot_S1024x1024_S1024x64_S1024x64_1_0_0_1_n_n none a b (constant (F := Ideal) S1024x64 .f32 0x00000000#32) (ix2 i d)
      = ∑ j : Fin 1024, a (ix2 i j) * b (ix2 j d) := by
  refine (Ideal.matmul_constant_zero_apply dot_S1024x1024_S1024x64_S1024x64_1_0_0_1_n_n none a b (ix2 i d)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 i d) ((contrEquiv1 dot_S1024x1024_S1024x64_S1024x64_1_0_0_1_n_n 1024 rfl rfl).symm k) = ix2 i k := funext fun c => Fin.ext (by
    match c with
    | ⟨0, _⟩ => exact outDot_lhs0 _ _
    | ⟨1, _⟩ => exact (outDot_lhs1 _ _).trans hk)
  have er : dot_S1024x1024_S1024x64_S1024x64_1_0_0_1_n_n.rhsIdx (ix2 i d) ((contrEquiv1 dot_S1024x1024_S1024x64_S1024x64_1_0_0_1_n_n 1024 rfl rfl).symm k) = ix2 k d := funext fun c => Fin.ext (by
    match c with
    | ⟨0, _⟩ => exact (outDot_rhs0 _ _).trans hk
    | ⟨1, _⟩ => exact outDot_rhs1 _ _)
  rw [el, er]

/-! ## A row's greatest entry and a row's sum, kept as a column and repeated along the row -/

/-- The index of row `i`'s entry `k`, as the reduction over the second axis names it. -/
theorem lift_row (h : S1024x1024.Reduces [1] S1024) (i k : Fin 1024) : h.lift (ix1 i) k = ix2 i k :=
  funext fun c => Fin.ext (by match c with | ⟨0, _⟩ => rfl | ⟨1, _⟩ => rfl)

/-- The rows' greatest entries, as a column repeated along the rows, at (i, j): the fold of max over row i. -/
theorem rowMax_at (s : FVec Ideal S1024x1024 .f32) (h : S1024x1024.Reduces [1] S1024) (hφ : FKind.Formats .f32)
    (hacc : (0xFF800000#32 : BitVec 32) = FKind.maximumf.neutral .f32 hφ) (i j : Fin 1024) :
    broadcastTo S1024x1024 (shapeCast S1024x1 (multiReduction (F := Ideal) .maximumf [1] S1024 s 0xFF800000#32 h hφ hacc) shapeCasts_S1024_S1024x1) broadcasts_S1024x1_S1024x1024 (ix2 i j)
      = rowMax (fun j' => s (ix2 i j')) := by
  refine (ColumnBroadcast.broadcastTo_a1_ab_apply _ broadcasts_S1024x1_S1024x1024 i j).trans ?_
  refine (ColumnCast.shapeCast_col_apply _ shapeCasts_S1024_S1024x1 i (0 : Fin 1)).trans ?_
  refine (Ideal.multiReduction_maximumf_single s 0xFF800000#32 h hφ hacc (ix1 i)).trans ?_
  unfold rowMax
  exact congrArg (Finset.fold max floor · Finset.univ) (funext fun k => congrArg s (lift_row h i k))

/-- The rows' sums, as a column repeated along the rows, at (i, j): the sum over row i. -/
theorem rowSum_at (e : FVec Ideal S1024x1024 .f32) (h : S1024x1024.Reduces [1] S1024) (hφ : FKind.Formats .f32)
    (hacc : (0x00000000#32 : BitVec 32) = FKind.add.neutral .f32 hφ) (i j : Fin 1024) :
    broadcastTo S1024x1024 (shapeCast S1024x1 (multiReduction (F := Ideal) .add [1] S1024 e 0x00000000#32 h hφ hacc) shapeCasts_S1024_S1024x1) broadcasts_S1024x1_S1024x1024 (ix2 i j)
      = ∑ j' : Fin 1024, e (ix2 i j') := by
  refine (ColumnBroadcast.broadcastTo_a1_ab_apply _ broadcasts_S1024x1_S1024x1024 i j).trans ?_
  refine (ColumnCast.shapeCast_col_apply _ shapeCasts_S1024_S1024x1 i (0 : Fin 1)).trans ?_
  refine (Ideal.multiReduction_add_single e 0x00000000#32 h hφ hacc (ix1 i)).trans ?_
  exact Finset.sum_congr rfl fun k _ => congrArg e (lift_row h i k)

end Cert.KernelIdeal.Row

end
-- ==== Proof.KernelRow.lean ====
/-
  What the body leaves, read at one element of its output blocks.

  From the query block, the key block and the block of mask words of one batch the body makes the block of
  attention weights: the element (i, j) is the softmax, at key j, of query i's row of masked scaled scores. The
  mask bit of a word is set where the word is not zero. The output block's element (i, d) is the sum over the
  keys j of weight (i, j) times the value block's element (j, d).

  The body's value is three stages. The SCORES: the queries times the transposed keys, times 0.125, with the fill
  value selected where the mask word is not zero. The SHIFTED EXPONENTIALS: exp of each score minus its row's
  greatest score. The NORMALISED rows: each entry divided by its row's sum. A change of float format between the
  stages is the identity on extended reals.
-/
import proofs.«174749_j31842887533219_2_alg».proof.Proof.Gen.KernelIdeal.Skeleton
import proofs.«174749_j31842887533219_2_alg».proof.Proof.Spec
import proofs.«174749_j31842887533219_2_alg».proof.Proof.KernelOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Row

open Cert.KernelIdeal Cert.KernelIdeal.Gen Idealize.ShloMosaic Idealize.ShloMosaic.ValueIdx Cert.Attention

/-- The bit the body makes of a mask word: set where the word is not zero. -/
def wordBit (w : BitVec 32) : BitVec 1 := IntOp.cmpi .ne w 0#32

/-- A bit widened to a word and tested against zero is the bit. -/
theorem wordBit_setWidth (b : BitVec 1) : wordBit (b.setWidth 32) = b := by
  by_cases h : b = 1#1
  · subst h; decide
  · have h0 := eq_zero_of_ne_one h
    subst h0; decide

/-! ## The three stages -/

/-- The block of masked scaled scores: q kᵀ · 0.125, the fill value where the mask word is not zero. -/
def scores (x0 x1 : Vec Ideal S1x1024x64 .f32) (x3 : Vec Ideal S1x1024x1024 .i32) : FVec Ideal S1024x1024 .f32 :=
  select (cmpi .ne (shapeCast S1024x1024 x3 shapeCasts_S1x1024x1024_S1024x1024 : IVec S1024x1024 32) (constantI S1024x1024 32 0#32))
    (broadcast S1024x1024 (Scalar.ofBits (F := Ideal) .f32 0xCE6E6B28#32))
    (mulf (matmul (F := Ideal) dot_S1024x64_S64x1024_S1024x1024_1_0_0_1_n_n none
        (truncf .bf16 (shapeCast S1024x64 x0 shapeCasts_S1x1024x64_S1024x64 : FVec Ideal S1024x64 .f32) bitsLt_bf16_f32)
        (transpose S64x1024 [1, 0] (truncf .bf16 (shapeCast S1024x64 x1 shapeCasts_S1x1024x64_S1024x64 : FVec Ideal S1024x64 .f32) bitsLt_bf16_f32 : FVec Ideal S1024x64 .bf16) transposes_S1024x64_p1_0_S64x1024)
        (constant (F := Ideal) S1024x1024 .f32 0x00000000#32))
      (broadcast S1024x1024 (Scalar.ofBits (F := Ideal) .f32 0x3E000000#32)))

/-- exp of each entry minus its row's greatest entry. -/
def expShift (s : FVec Ideal S1024x1024 .f32) : FVec Ideal S1024x1024 .f32 :=
  exp (subf s (broadcastTo S1024x1024 (shapeCast S1024x1
    (multiReduction (F := Ideal) .maximumf [1] S1024 s 0xFF800000#32 reduces_S1024x1024_S1024 (.inl rfl) rfl) shapeCasts_S1024_S1024x1) broadcasts_S1024x1_S1024x1024))

/-- Each entry divided by its row's sum. -/
def normalize (e : FVec Ideal S1024x1024 .f32) : FVec Ideal S1024x1024 .f32 :=
  divf e (broadcastTo S1024x1024 (shapeCast S1024x1
    (multiReduction (F := Ideal) .add [1] S1024 e 0x00000000#32 reduces_S1024x1024_S1024 (.inl rfl) rfl) shapeCasts_S1024_S1024x1) broadcasts_S1024x1_S1024x1024)

/-- The body's weights are the three stages in turn. -/
theorem weights_stages (x0 x1 : Vec Ideal S1x1024x64 .f32) (x3 : Vec Ideal S1x1024x1024 .i32) :
    k0_pay2 (F := Ideal) x0 x1 x3 = normalize (expShift (scores x0 x1 x3)) := rfl

/-- The body's output block is the product of the weights with the value block. -/
theorem output_stages (x0 x1 x2 : Vec Ideal S1x1024x64 .f32) (x3 : Vec Ideal S1x1024x1024 .i32) :
    k0_pay4 (F := Ideal) x0 x1 x2 x3 = matmul (F := Ideal) dot_S1024x1024_S1024x64_S1024x64_1_0_0_1_n_n none
      (truncf .bf16 (k0_pay2 (F := Ideal) x0 x1 x3) bitsLt_bf16_f32)
      (truncf .bf16 (shapeCast S1024x64 x2 shapeCasts_S1x1024x64_S1024x64 : FVec Ideal S1024x64 .f32) bitsLt_bf16_f32)
      (constant (F := Ideal) S1024x64 .f32 0x00000000#32) := rfl

/-! ## Each stage at an element -/

/-- The score block at (i, j) is the score of key j for query i. -/
theorem scores_at (x0 x1 : Vec Ideal S1x1024x64 .f32) (x3 : Vec Ideal S1x1024x1024 .i32) (i j : Fin 1024) :
    scores x0 x1 x3 (ix2 i j)
      = score (fun d => x0 (ix3 (0 : Fin 1) i d)) (fun j' d => x1 (ix3 (0 : Fin 1) j' d))
          (fun j' => wordBit (x3 (ix3 (0 : Fin 1) i j'))) j := by
  have hm : (shapeCast S1024x1024 x3 shapeCasts_S1x1024x1024_S1024x1024 : IVec S1024x1024 32) (ix2 i j) = x3 (ix3 (0 : Fin 1) i j) :=
    shapeCast_1ab_ab_apply x3 _ i j
  have hd : matmul (F := Ideal) dot_S1024x64_S64x1024_S1024x1024_1_0_0_1_n_n none
        (truncf .bf16 (shapeCast S1024x64 x0 shapeCasts_S1x1024x64_S1024x64 : FVec Ideal S1024x64 .f32) bitsLt_bf16_f32)
        (transpose S64x1024 [1, 0] (truncf .bf16 (shapeCast S1024x64 x1 shapeCasts_S1x1024x64_S1024x64 : FVec Ideal S1024x64 .f32) bitsLt_bf16_f32 : FVec Ideal S1024x64 .bf16) transposes_S1024x64_p1_0_S64x1024)
        (constant (F := Ideal) S1024x1024 .f32 0x00000000#32) (ix2 i j)
      = ∑ d : Fin 64, x0 (ix3 (0 : Fin 1) i d) * x1 (ix3 (0 : Fin 1) j d) := by
    refine (scoreDot_at _ _ i j).trans (Finset.sum_congr rfl fun d _ => ?_)
    have hq : (truncf .bf16 (shapeCast S1024x64 x0 shapeCasts_S1x1024x64_S1024x64 : FVec Ideal S1024x64 .f32) bitsLt_bf16_f32 : FVec Ideal S1024x64 .bf16) (ix2 i d) = x0 (ix3 (0 : Fin 1) i d) :=
      shapeCast_1ab_ab_apply x0 _ i d
    have hk : (transpose S64x1024 [1, 0] (truncf .bf16 (shapeCast S1024x64 x1 shapeCasts_S1x1024x64_S1024x64 : FVec Ideal S1024x64 .f32) bitsLt_bf16_f32 : FVec Ideal S1024x64 .bf16) transposes_S1024x64_p1_0_S64x1024 : FVec Ideal S64x1024 .bf16) (ix2 d j) = x1 (ix3 (0 : Fin 1) j d) :=
      (transpose_ix2_apply _ transposes_S1024x64_p1_0_S64x1024 d j).trans (shapeCast_1ab_ab_apply x1 _ j d)
    rw [hq, hk]
  show Scalar.select (IntOp.cmpi .ne ((shapeCast S1024x1024 x3 shapeCasts_S1x1024x1024_S1024x1024 : IVec S1024x1024 32) (ix2 i j)) 0#32) fill
      (matmul (F := Ideal) dot_S1024x64_S64x1024_S1024x1024_1_0_0_1_n_n none
        (truncf .bf16 (shapeCast S1024x64 x0 shapeCasts_S1x1024x64_S1024x64 : FVec Ideal S1024x64 .f32) bitsLt_bf16_f32)
        (transpose S64x1024 [1, 0] (truncf .bf16 (shapeCast S1024x64 x1 shapeCasts_S1x1024x64_S1024x64 : FVec Ideal S1024x64 .f32) bitsLt_bf16_f32 : FVec Ideal S1024x64 .bf16) transposes_S1024x64_p1_0_S64x1024)
        (constant (F := Ideal) S1024x1024 .f32 0x00000000#32) (ix2 i j) * scale) = _
  rw [hm, hd]
  rfl

/-- The shifted exponentials at (i, j): exp of the entry minus row i's greatest entry. -/
theorem expShift_at (s : FVec Ideal S1024x1024 .f32) (i j : Fin 1024) :
    expShift s (ix2 i j) = Ideal.exp (s (ix2 i j) - rowMax (fun j' => s (ix2 i j'))) :=
  congrArg (fun z => Ideal.exp (s (ix2 i j) - z)) (rowMax_at s reduces_S1024x1024_S1024 (.inl rfl) rfl i j)

/-- The normalised rows at (i, j): the entry divided by row i's sum. -/
theorem normalize_at (e : FVec Ideal S1024x1024 .f32) (i j : Fin 1024) :
    normalize e (ix2 i j) = Ideal.div (e (ix2 i j)) (∑ j' : Fin 1024, e (ix2 i j')) :=
  congrArg (Ideal.div (e (ix2 i j))) (rowSum_at e reduces_S1024x1024_S1024 (.inl rfl) rfl i j)

/-! ## The two output blocks at an element -/

/-- The weights block at (i, j): the softmax at key j of query i's score row. -/
theorem weights_at (x0 x1 : Vec Ideal S1x1024x64 .f32) (x3 : Vec Ideal S1x1024x1024 .i32) (i j : Fin 1024) :
    k0_pay2 (F := Ideal) x0 x1 x3 (ix2 i j)
      = softmax (score (fun d => x0 (ix3 (0 : Fin 1) i d)) (fun j' d => x1 (ix3 (0 : Fin 1) j' d))
          (fun j' => wordBit (x3 (ix3 (0 : Fin 1) i j')))) j := by
  rw [weights_stages, normalize_at]
  simp only [expShift_at, scores_at]
  rfl

/-- The output block at (i, d): the weights of query i against column d of the value block. -/
theorem output_at (x0 x1 x2 : Vec Ideal S1x1024x64 .f32) (x3 : Vec Ideal S1x1024x1024 .i32) (i : Fin 1024) (d : Fin 64) :
    k0_pay4 (F := Ideal) x0 x1 x2 x3 (ix2 i d)
      = ∑ j : Fin 1024, k0_pay2 (F := Ideal) x0 x1 x3 (ix2 i j) * x2 (ix3 (0 : Fin 1) j d) := by
  rw [output_stages]
  refine (outDot_at _ _ i d).trans (Finset.sum_congr rfl fun j _ => ?_)
  have hv : (truncf .bf16 (shapeCast S1024x64 x2 shapeCasts_S1x1024x64_S1024x64 : FVec Ideal S1024x64 .f32) bitsLt_bf16_f32 : FVec Ideal S1024x64 .bf16) (ix2 j d) = x2 (ix3 (0 : Fin 1) j d) :=
    shapeCast_1ab_ab_apply x2 _ j d
  rw [hv]
  rfl

end Cert.KernelIdeal.Row

end
-- ==== Proof.Blocks.lean ====
/-
  From the blocks to the arrays.

  The grid has one point per batch. At the point of batch b each of the six windows holds block (b, 0, 0) of its
  array: the whole slab of batch b, so the element (0, i, d) of a block is the element (b, i, d) of the array. The
  body turns the query, key, value and mask-word slabs of batch b into the slab of attention weights and the slab of
  outputs of batch b, and every point writes both back. The slabs of the 64 batches cover each output array, so after
  the run the weights array is the attention matrix of the argument arrays, and the output array is their output, as
  whole arrays.

  The mask words are not an argument: before the region each mask bit is widened to a 32-bit word, and the body
  recovers the bit by testing the word against zero, so the bit it uses at (b, i, j) is the mask argument's bit there.
-/
import proofs.«174749_j31842887533219_2_alg».proof.Proof.Gen.KernelIdeal.Value
import proofs.«174749_j31842887533219_2_alg».proof.Proof.KernelRow
import proofs.«174749_j31842887533219_2_alg».proof.Proof.Spec
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Attention Cert.KernelIdeal.Row

variable (m : (ℓ : Loc nD τ sig) → Buf (Elt Ideal) ℓ) (ρ : Dev nD → PrngReg)

/-- The offsets of a load of a whole block are zero on every axis. -/
theorem zeros3 : (![0, 0, 0] : Fin 3 → Nat) = fun _ => 0 := funext fun a => by fin_cases a <;> rfl

/-- The grid has 64 points, one per batch. -/
theorem points : cfg0.N = 64 := N_0

/-- The array of mask words the region finds: each bit of the mask argument widened to a 32-bit word. -/
theorem maskWords (c : Dev nD) :
    (V m c main_v0 : S64x1024x1024.Idx → BitVec 32) = extui 32 (m ((c : Thread nD τ).loc main_arg3)) natLt_1_32 := by
  dsimp only [Gen.V, Gen.hostOps0]; after_results

/-- At point t every window's block index is (t, 0, 0), decided over the 64 points. -/
theorem blockIndex : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0)
    ∧ (win0_4.index t 0 = t.val ∧ win0_4.index t 1 = 0 ∧ win0_4.index t 2 = 0)
    ∧ (win0_5.index t 0 = t.val ∧ win0_5.index t 1 = 0 ∧ win0_5.index t 2 = 0) :=
  (by decide +kernel : ∀ t : Fin grid0.N, _)

/-- The batch a grid point works on. -/
abbrev batch (t : Fin cfg0.N) : Fin 64 := t.cast points

/-- Over variable blocks: if the query, key and word blocks are batch b's rows of three arrays, the weights
    block at (i, j) is the attention matrix of those arrays at (b, i, j). -/
theorem weights_of_rows (x0 x1 : Vec Ideal S1x1024x64 .f32) (x3 : Vec Ideal S1x1024x1024 .i32)
    (Q K : S64x1024x64.Idx → EReal) (W : S64x1024x1024.Idx → BitVec 32) (b : Fin 64)
    (h0 : ∀ (i : Fin 1024) (d : Fin 64), x0 (ix3 (0 : Fin 1) i d) = Q (ix3 b i d))
    (h1 : ∀ (j : Fin 1024) (d : Fin 64), x1 (ix3 (0 : Fin 1) j d) = K (ix3 b j d))
    (h3 : ∀ (i j : Fin 1024), x3 (ix3 (0 : Fin 1) i j) = W (ix3 b i j)) (i j : Fin 1024) :
    k0_pay2 (F := Ideal) x0 x1 x3 (ix2 i j) = attn Q K (fun k => wordBit (W k)) (ix3 b i j) := by
  rw [Row.weights_at]
  show _ = softmax (score (fun d => Q (ix3 b i d)) (fun j' d => K (ix3 b j' d)) (fun j' => wordBit (W (ix3 b i j')))) j
  simp only [h0, h1, h3]

/-- Likewise the output block at (i, d), given also the value block as batch b's rows. -/
theorem output_of_rows (x0 x1 x2 : Vec Ideal S1x1024x64 .f32) (x3 : Vec Ideal S1x1024x1024 .i32)
    (Q K Vl : S64x1024x64.Idx → EReal) (W : S64x1024x1024.Idx → BitVec 32) (b : Fin 64)
    (h0 : ∀ (i : Fin 1024) (d : Fin 64), x0 (ix3 (0 : Fin 1) i d) = Q (ix3 b i d))
    (h1 : ∀ (j : Fin 1024) (d : Fin 64), x1 (ix3 (0 : Fin 1) j d) = K (ix3 b j d))
    (h2 : ∀ (j : Fin 1024) (d : Fin 64), x2 (ix3 (0 : Fin 1) j d) = Vl (ix3 b j d))
    (h3 : ∀ (i j : Fin 1024), x3 (ix3 (0 : Fin 1) i j) = W (ix3 b i j)) (i : Fin 1024) (d : Fin 64) :
    k0_pay4 (F := Ideal) x0 x1 x2 x3 (ix2 i d) = out Q K Vl (fun k => wordBit (W k)) (ix3 b i d) := by
  rw [Row.output_at]
  show _ = ∑ j : Fin 1024, attn Q K (fun k => wordBit (W k)) (ix3 b i j) * Vl (ix3 b j d)
  refine Finset.sum_congr rfl fun j _ => ?_
  rw [weights_of_rows x0 x1 x3 Q K W b h0 h1 h3 i j, h2 j d]

/-- The query window's block at point t, at (i, d), is the query array at (t, i, d). -/
theorem queryBlock (c : Dev nD) (t : Fin cfg0.N) (i : Fin 1024) (d : Fin 64) :
    (iblk m c 0 t : Vec Ideal S1x1024x64 .f32) (ix3 (0 : Fin 1) i d) = (V m c main_arg0 : S64x1024x64.Idx → EReal) (ix3 (batch t) i d) := by
  obtain ⟨⟨e0, e1, e2⟩, -⟩ := blockIndex t
  unfold iblk
  rw [View.read_apply]
  show V m c main_arg0 _ = V m c main_arg0 _
  congr 1
  funext a
  apply Fin.ext
  match a with
  | ⟨0, _⟩ => show win0_0.index t 0 * 1 + 1 * 0 = t.val; omega
  | ⟨1, _⟩ => show win0_0.index t 1 * 1024 + 1 * i.val = i.val; omega
  | ⟨2, _⟩ => show win0_0.index t 2 * 64 + 1 * d.val = d.val; omega

/-- The key window's block at point t, at (j, d), is the key array at (t, j, d). -/
theorem keyBlock (c : Dev nD) (t : Fin cfg0.N) (j : Fin 1024) (d : Fin 64) :
    (iblk m c 1 t : Vec Ideal S1x1024x64 .f32) (ix3 (0 : Fin 1) j d) = (V m c main_arg1 : S64x1024x64.Idx → EReal) (ix3 (batch t) j d) := by
  obtain ⟨-, ⟨e0, e1, e2⟩, -⟩ := blockIndex t
  unfold iblk
  rw [View.read_apply]
  show V m c main_arg1 _ = V m c main_arg1 _
  congr 1
  funext a
  apply Fin.ext
  match a with
  | ⟨0, _⟩ => show win0_1.index t 0 * 1 + 1 * 0 = t.val; omega
  | ⟨1, _⟩ => show win0_1.index t 1 * 1024 + 1 * j.val = j.val; omega
  | ⟨2, _⟩ => show win0_1.index t 2 * 64 + 1 * d.val = d.val; omega

/-- The value window's block at point t, at (j, d), is the value array at (t, j, d). -/
theorem valueBlock (c : Dev nD) (t : Fin cfg0.N) (j : Fin 1024) (d : Fin 64) :
    (iblk m c 2 t : Vec Ideal S1x1024x64 .f32) (ix3 (0 : Fin 1) j d) = (V m c main_arg2 : S64x1024x64.Idx → EReal) (ix3 (batch t) j d) := by
  obtain ⟨-, -, ⟨e0, e1, e2⟩, -⟩ := blockIndex t
  unfold iblk
  rw [View.read_apply]
  show V m c main_arg2 _ = V m c main_arg2 _
  congr 1
  funext a
  apply Fin.ext
  match a with
  | ⟨0, _⟩ => show win0_2.index t 0 * 1 + 1 * 0 = t.val; omega
  | ⟨1, _⟩ => show win0_2.index t 1 * 1024 + 1 * j.val = j.val; omega
  | ⟨2, _⟩ => show win0_2.index t 2 * 64 + 1 * d.val = d.val; omega

/-- The mask-word window's block at point t, at (i, j), is the word array at (t, i, j). -/
theorem wordBlock (c : Dev nD) (t : Fin cfg0.N) (i j : Fin 1024) :
    (iblk m c 3 t : Vec Ideal S1x1024x1024 .i32) (ix3 (0 : Fin 1) i j) = (V m c main_v0 : S64x1024x1024.Idx → BitVec 32) (ix3 (batch t) i j) := by
  obtain ⟨-, -, -, ⟨e0, e1, e2⟩, -⟩ := blockIndex t
  unfold iblk
  rw [View.read_apply]
  show V m c main_v0 _ = V m c main_v0 _
  congr 1
  funext a
  apply Fin.ext
  match a with
  | ⟨0, _⟩ => show win0_3.index t 0 * 1 + 1 * 0 = t.val; omega
  | ⟨1, _⟩ => show win0_3.index t 1 * 1024 + 1 * i.val = i.val; omega
  | ⟨2, _⟩ => show win0_3.index t 2 * 1024 + 1 * j.val = j.val; omega

/-- Over variable blocks: what the body leaves in the weights buffer, at (0, i, j). -/
theorem weightsBuffer (x0 x1 x2 : Vec Ideal S1x1024x64 .f32) (x3 : Vec Ideal S1x1024x1024 .i32)
    (Q K : S64x1024x64.Idx → EReal) (W : S64x1024x1024.Idx → BitVec 32) (b : Fin 64)
    (h0 : ∀ (i : Fin 1024) (d : Fin 64), x0 (ix3 (0 : Fin 1) i d) = Q (ix3 b i d))
    (h1 : ∀ (j : Fin 1024) (d : Fin 64), x1 (ix3 (0 : Fin 1) j d) = K (ix3 b j d))
    (h3 : ∀ (i j : Fin 1024), x3 (ix3 (0 : Fin 1) i j) = W (ix3 b i j)) (i j : Fin 1024) :
    out0_5 (F := Ideal) x0 x1 x2 x3 (ix3 (0 : Fin 1) i j) = attn Q K (fun k => wordBit (W k)) (ix3 b i j) := by
  unfold out0_5
  simp only [View.ld_unit_zero (S := S1x1024x64) zeros3, View.ld_unit_zero (S := S1x1024x1024) zeros3]
  rw [Value.canon5_eq]
  show k0_pay2 (F := Ideal) x0 x1 x3 (Value.ix5_0 (ix3 (0 : Fin 1) i j)) = _
  have e : Value.ix5_0 (ix3 (0 : Fin 1) i j) = ix2 i j := by
    funext a; apply Fin.ext
    match a with
    | ⟨0, _⟩ => rfl
    | ⟨1, _⟩ => rfl
  rw [e]
  exact weights_of_rows x0 x1 x3 Q K W b h0 h1 h3 i j

/-- Over variable blocks: what the body leaves in the output buffer, at (0, i, d). -/
theorem outputBuffer (x0 x1 x2 : Vec Ideal S1x1024x64 .f32) (x3 : Vec Ideal S1x1024x1024 .i32)
    (Q K Vl : S64x1024x64.Idx → EReal) (W : S64x1024x1024.Idx → BitVec 32) (b : Fin 64)
    (h0 : ∀ (i : Fin 1024) (d : Fin 64), x0 (ix3 (0 : Fin 1) i d) = Q (ix3 b i d))
    (h1 : ∀ (j : Fin 1024) (d : Fin 64), x1 (ix3 (0 : Fin 1) j d) = K (ix3 b j d))
    (h2 : ∀ (j : Fin 1024) (d : Fin 64), x2 (ix3 (0 : Fin 1) j d) = Vl (ix3 b j d))
    (h3 : ∀ (i j : Fin 1024), x3 (ix3 (0 : Fin 1) i j) = W (ix3 b i j)) (i : Fin 1024) (d : Fin 64) :
    out0_4 (F := Ideal) x0 x1 x2 x3 (ix3 (0 : Fin 1) i d) = out Q K Vl (fun k => wordBit (W k)) (ix3 b i d) := by
  unfold out0_4
  simp only [View.ld_unit_zero (S := S1x1024x64) zeros3, View.ld_unit_zero (S := S1x1024x1024) zeros3]
  rw [Value.canon4_eq]
  show k0_pay4 (F := Ideal) x0 x1 x2 x3 (Value.ix4_0 (ix3 (0 : Fin 1) i d)) = _
  have e : Value.ix4_0 (ix3 (0 : Fin 1) i d) = ix2 i d := by
    funext a; apply Fin.ext
    match a with
    | ⟨0, _⟩ => rfl
    | ⟨1, _⟩ => rfl
  rw [e]
  exact output_of_rows x0 x1 x2 x3 Q K Vl W b h0 h1 h2 h3 i d

/-- Where the weights window's block at point t sits in its array: (0, i, j) at (t, i, j). -/
theorem weightsPlace (t : Fin cfg0.N) (i j : Fin 1024) :
    (((cfg0.win 5).blk t).view.emb (ix3 (0 : Fin 1) i j) : S64x1024x1024.Idx) = ix3 (batch t) i j := by
  obtain ⟨-, -, -, -, -, ⟨e0, e1, e2⟩⟩ := blockIndex t
  funext a
  apply Fin.ext
  match a with
  | ⟨0, _⟩ => show win0_5.index t 0 * 1 + 1 * 0 = t.val; omega
  | ⟨1, _⟩ => show win0_5.index t 1 * 1024 + 1 * i.val = i.val; omega
  | ⟨2, _⟩ => show win0_5.index t 2 * 1024 + 1 * j.val = j.val; omega

/-- Where the output window's block at point t sits in its array: (0, i, d) at (t, i, d). -/
theorem outputPlace (t : Fin cfg0.N) (i : Fin 1024) (d : Fin 64) :
    (((cfg0.win 4).blk t).view.emb (ix3 (0 : Fin 1) i d) : S64x1024x64.Idx) = ix3 (batch t) i d := by
  obtain ⟨-, -, -, -, ⟨e0, e1, e2⟩, -⟩ := blockIndex t
  funext a
  apply Fin.ext
  match a with
  | ⟨0, _⟩ => show win0_4.index t 0 * 1 + 1 * 0 = t.val; omega
  | ⟨1, _⟩ => show win0_4.index t 1 * 1024 + 1 * i.val = i.val; omega
  | ⟨2, _⟩ => show win0_4.index t 2 * 64 + 1 * d.val = d.val; omega

/-- What point t writes back to the weights array is block t of the attention matrix of the arrays the region finds. -/
theorem flushedWeights (c : Dev nD) (t : Fin cfg0.N) :
    (dats m 0 c).flushed 5 t = ((cfg0.win 5).blk t).view.read (Elt Ideal)
      (attn (V m c main_arg0) (V m c main_arg1) (fun k => wordBit ((V m c main_v0 : S64x1024x1024.Idx → BitVec 32) k))) := by
  rw [Value.flushed5]
  refine funext fun (y : S1x1024x1024.Idx) => ?_
  obtain ⟨a, i, j, rfl⟩ : ∃ (a : Fin 1) (i j : Fin 1024), y = ix3 a i j := ⟨y 0, y 1, y 2, eq_ix3 y⟩
  obtain rfl : a = 0 := Subsingleton.elim _ _
  rw [View.read_apply]
  show out0_5 (F := Ideal) (iblk m c 0 t) (iblk m c 1 t) (iblk m c 2 t) (iblk m c 3 t) (ix3 (0 : Fin 1) i j)
    = attn (V m c main_arg0) (V m c main_arg1) (fun k => wordBit ((V m c main_v0 : S64x1024x1024.Idx → BitVec 32) k))
        (((cfg0.win 5).blk t).view.emb (ix3 (0 : Fin 1) i j))
  rw [weightsPlace t i j]
  exact weightsBuffer (iblk m c 0 t) (iblk m c 1 t) (iblk m c 2 t) (iblk m c 3 t) (V m c main_arg0) (V m c main_arg1)
    (V m c main_v0) (batch t) (queryBlock m c t) (keyBlock m c t) (wordBlock m c t) i j

/-- What point t writes back to the output array is block t of the output of the arrays the region finds. -/
theorem flushedOutput (c : Dev nD) (t : Fin cfg0.N) :
    (dats m 0 c).flushed 4 t = ((cfg0.win 4).blk t).view.read (Elt Ideal)
      (out (V m c main_arg0) (V m c main_arg1) (V m c main_arg2) (fun k => wordBit ((V m c main_v0 : S64x1024x1024.Idx → BitVec 32) k))) := by
  rw [Value.flushed4]
  refine funext fun (y : S1x1024x64.Idx) => ?_
  obtain ⟨a, i, d, rfl⟩ : ∃ (a : Fin 1) (i : Fin 1024) (d : Fin 64), y = ix3 a i d := ⟨y 0, y 1, y 2, eq_ix3 y⟩
  obtain rfl : a = 0 := Subsingleton.elim _ _
  rw [View.read_apply]
  show out0_4 (F := Ideal) (iblk m c 0 t) (iblk m c 1 t) (iblk m c 2 t) (iblk m c 3 t) (ix3 (0 : Fin 1) i d)
    = out (V m c main_arg0) (V m c main_arg1) (V m c main_arg2) (fun k => wordBit ((V m c main_v0 : S64x1024x1024.Idx → BitVec 32) k))
        (((cfg0.win 4).blk t).view.emb (ix3 (0 : Fin 1) i d))
  rw [outputPlace t i d]
  exact outputBuffer (iblk m c 0 t) (iblk m c 1 t) (iblk m c 2 t) (iblk m c 3 t) (V m c main_arg0) (V m c main_arg1)
    (V m c main_arg2) (V m c main_v0) (batch t) (queryBlock m c t) (keyBlock m c t) (valueBlock m c t) (wordBlock m c t) i d

/-- An index of the weights array is in point t's block iff each coordinate is in the block's range on its axis. -/
theorem mem_weightsBlock (t : Fin cfg0.N) (i : S64x1024x1024.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v1_1).slice (win0_5.rect t)).set ↔ _
  rw [View.set_slice_whole, Rect.mem_set_unit]
  exact Iff.rfl

/-- An index of the output array is in point t's block iff each coordinate is in the block's range on its axis. -/
theorem mem_outputBlock (t : Fin cfg0.N) (i : S64x1024x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v1_0).slice (win0_4.rect t)).set ↔ _
  rw [View.set_slice_whole, Rect.mem_set_unit]
  exact Iff.rfl

/-- Every index (b, i, j) of the weights array lies in the block of the point of batch b, which writes back. -/
theorem weightsCovered (i : S64x1024x1024.Idx) :
    ∃ t : Fin cfg0.N, (cfg0.win 5).flush t = true ∧ i ∈ ((cfg0.win 5).blk t).view.set := by
  have h0 : (i 0).val < 64 := (i 0).isLt
  have h1 : (i 1).val < 1024 := (i 1).isLt
  have h2 : (i 2).val < 1024 := (i 2).isLt
  obtain ⟨t, ht⟩ : ∃ t : Fin cfg0.N, t.val = (i 0).val := ⟨⟨(i 0).val, by rw [points]; exact h0⟩, rfl⟩
  obtain ⟨-, -, -, -, -, ⟨e0, e1, e2⟩⟩ := blockIndex t
  refine ⟨t, flush0_5 t, ?_⟩
  rw [mem_weightsBlock]
  intro a
  match a with
  | ⟨0, _⟩ => show win0_5.index t 0 * 1 ≤ (i 0).val ∧ (i 0).val < win0_5.index t 0 * 1 + 1; omega
  | ⟨1, _⟩ => show win0_5.index t 1 * 1024 ≤ (i 1).val ∧ (i 1).val < win0_5.index t 1 * 1024 + 1024; omega
  | ⟨2, _⟩ => show win0_5.index t 2 * 1024 ≤ (i 2).val ∧ (i 2).val < win0_5.index t 2 * 1024 + 1024; omega

/-- Every index (b, i, d) of the output array lies in the block of the point of batch b, which writes back. -/
theorem outputCovered (i : S64x1024x64.Idx) :
    ∃ t : Fin cfg0.N, (cfg0.win 4).flush t = true ∧ i ∈ ((cfg0.win 4).blk t).view.set := by
  have h0 : (i 0).val < 64 := (i 0).isLt
  have h1 : (i 1).val < 1024 := (i 1).isLt
  have h2 : (i 2).val < 64 := (i 2).isLt
  obtain ⟨t, ht⟩ : ∃ t : Fin cfg0.N, t.val = (i 0).val := ⟨⟨(i 0).val, by rw [points]; exact h0⟩, rfl⟩
  obtain ⟨-, -, -, -, ⟨e0, e1, e2⟩, -⟩ := blockIndex t
  refine ⟨t, flush0_4 t, ?_⟩
  rw [mem_outputBlock]
  intro a
  match a with
  | ⟨0, _⟩ => show win0_4.index t 0 * 1 ≤ (i 0).val ∧ (i 0).val < win0_4.index t 0 * 1 + 1; omega
  | ⟨1, _⟩ => show win0_4.index t 1 * 1024 ≤ (i 1).val ∧ (i 1).val < win0_4.index t 1 * 1024 + 1024; omega
  | ⟨2, _⟩ => show win0_4.index t 2 * 64 ≤ (i 2).val ∧ (i 2).val < win0_4.index t 2 * 64 + 64; omega

/-- The bit the body makes of each word the host wrote is the mask bit it was widened from. -/
theorem wordBits (c : Dev nD) :
    (fun k => wordBit ((V m c main_v0 : S64x1024x1024.Idx → BitVec 32) k)) = (m ((c : Thread nD τ).loc main_arg3) : S64x1024x1024.Idx → BitVec 1) := by
  funext k
  rw [maskWords m c, extui_apply, Row.wordBit_setWidth]

/-- After the run the weights array is the attention matrix of the query, key and mask arguments. -/
theorem weights_final (c : Dev nD) : (dats m 0 c).arrAt 5 cfg0.N
    = Cert.Attention.attn (m ((c : Thread nD τ).loc main_arg0)) (m ((c : Thread nD τ).loc main_arg1)) (m ((c : Thread nD τ).loc main_arg3)) := by
  refine ((dats m 0 c).arrAt_eq_of_cover 5 _ (fun t _ => flushedWeights m c t) weightsCovered).trans ?_
  exact congr (congr (congrArg Cert.Attention.attn (V_main_arg0 m c)) (V_main_arg1 m c)) (wordBits m c)

/-- After the run the output array is the output of the query, key, value and mask arguments. -/
theorem output_final (c : Dev nD) : (dats m 0 c).arrAt 4 cfg0.N
    = Cert.Attention.out (m ((c : Thread nD τ).loc main_arg0)) (m ((c : Thread nD τ).loc main_arg1)) (m ((c : Thread nD τ).loc main_arg2)) (m ((c : Thread nD τ).loc main_arg3)) := by
  refine ((dats m 0 c).arrAt_eq_of_cover 4 _ (fun t _ => flushedOutput m c t) outputCovered).trans ?_
  exact congr (congr (congr (congrArg Cert.Attention.out (V_main_arg0 m c)) (V_main_arg1 m c)) (V_main_arg2 m c)) (wordBits m c)

/-- The run, read: both result arrays as functions of the argument arrays, the arguments unchanged. -/
theorem run : θ_run defs (onTc (τ := τ) (main (F := Ideal))) ⟨m, fun _ => 0, ρ⟩ fun r => ∀ c : Dev nD,
      r.2.mem ((c : Thread nD τ).loc main_v1_0) = Cert.Attention.out (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = Cert.Attention.attn (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (output_final m c), (h c).2.1.trans (weights_final m c), (h c).2.2⟩)
    (Value.run_blocks m ρ)

end Cert.KernelIdeal.Blocks

end
-- ==== Proof.Reference.lean ====
/-
  The reference program's two results, read index by index, are the specification's two functions.

  Each stage of the reference is read at explicit coordinates (b, r, j): the masked scores (the quotient by the
  constant 8 is the product with one eighth on every extended real, the infinities included), the row maximum (a fold
  of max over the keys from the pattern of minus infinity; the maximum with that pattern once more changes nothing),
  the exponentials of the differences, their sum over the keys (from the pattern of zero, which is 0), and the
  quotient. The patterns of the fill value and of minus infinity are never evaluated: the same word stands on both
  sides. No finiteness of the inputs is used.
-/
import proofs.«174749_j31842887533219_2_alg».proof.Proof.Gen.ReferenceIdeal.Read
import proofs.«174749_j31842887533219_2_alg».proof.Proof.Spec
import Idealize.ShloMosaic.PureOps.Reduce
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.Attention
open Idealize.ShloMosaic Idealize.ShloMosaic.ValueIdx Idealize.SL.Sem

/-! ## The two constants that are evaluated -/

/-- The divisor's pattern denotes the real 8. -/
theorem ofBits_eight : Ideal.ofBits .f32 0x41000000#32 = ((8 : ℝ) : EReal) := by
  simp [Ideal.ofBits, Ideal.ieee, -EReal.coe_mul]; norm_num

/-- The scale's pattern denotes the real 1/8. -/
theorem ofBits_eighth : Ideal.ofBits .f32 0x3E000000#32 = ((1 / 8 : ℝ) : EReal) := by
  simp [Ideal.ofBits, Ideal.ieee, -EReal.coe_mul]; norm_num

/-- On every extended real the quotient by 8 is the product with one eighth. -/
theorem div_eight (x : EReal) : Ideal.div x (Ideal.ofBits .f32 0x41000000#32) = x * scale := by
  rw [ofBits_eight, Ideal.div_coe (by norm_num : (8 : ℝ) ≠ 0)]
  show _ = x * Ideal.ofBits .f32 0x3E000000#32
  rw [ofBits_eighth]

/-! ## The index functions, composed, are the coordinates -/

theorem lidx_v0 (b : Fin 64) (r j : Fin 1024) (d : Fin 64) : lidx_main_v0 (ix3 b r j) d = ix3 b r d :=
  funext fun a => Fin.ext (by match a with | ⟨0, _⟩ => rfl | ⟨1, _⟩ => rfl | ⟨2, _⟩ => rfl)
theorem ridx_v0 (b : Fin 64) (r j : Fin 1024) (d : Fin 64) : ridx_main_v0 (ix3 b r j) d = ix3 b j d :=
  funext fun a => Fin.ext (by match a with | ⟨0, _⟩ => rfl | ⟨1, _⟩ => rfl | ⟨2, _⟩ => rfl)

theorem idx_v78 (b : Fin 64) (r j : Fin 1024) : idx_main_v7 (idx_main_v8 (ix3 b r j)) = ix2 b r :=
  funext fun a => Fin.ext (by match a with | ⟨0, _⟩ => rfl | ⟨1, _⟩ => rfl)
theorem idx_v1213 (b : Fin 64) (r j : Fin 1024) : idx_main_v12 (idx_main_v13 (ix3 b r j)) = ix2 b r :=
  funext fun a => Fin.ext (by match a with | ⟨0, _⟩ => rfl | ⟨1, _⟩ => rfl)
theorem idx_v11 (b : Fin 64) (r j : Fin 1024) : idx_main_v11 (ix2 b r) j = ix3 b r j :=
  funext fun a => Fin.ext (by match a with | ⟨0, _⟩ => rfl | ⟨1, _⟩ => rfl | ⟨2, _⟩ => rfl)
theorem lidx_v15 (b : Fin 64) (r : Fin 1024) (d : Fin 64) (j : Fin 1024) : lidx_main_v15 (ix3 b r d) j = ix3 b r j :=
  funext fun a => Fin.ext (by match a with | ⟨0, _⟩ => rfl | ⟨1, _⟩ => rfl | ⟨2, _⟩ => rfl)
theorem ridx_v15 (b : Fin 64) (r : Fin 1024) (d : Fin 64) (j : Fin 1024) : ridx_main_v15 (ix3 b r d) j = ix3 b j d :=
  funext fun a => Fin.ext (by match a with | ⟨0, _⟩ => rfl | ⟨1, _⟩ => rfl | ⟨2, _⟩ => rfl)

/-! ## The stages, each at explicit coordinates -/

/-- The score row of query (b, r), as the specification writes it. -/
abbrev row (Q K : (⟨S64x1024x64, .f32⟩ : BufTy).Contents (Elt Ideal)) (M : (⟨S64x1024x1024, .i1⟩ : BufTy).Contents (Elt Ideal))
    (b : Fin 64) (r : Fin 1024) : Fin 1024 → EReal :=
  score (fun d => Q (ix3 b r d)) (fun j d => K (ix3 b j d)) (fun j => M (ix3 b r j))

/-- The masked, scaled scores: the select between the fill value and q · k_j / 8, the quotient read as the product
    with one eighth. -/
theorem scores_apply (Q K : (⟨S64x1024x64, .f32⟩ : BufTy).Contents (Elt Ideal)) (M : (⟨S64x1024x1024, .i1⟩ : BufTy).Contents (Elt Ideal))
    (b : Fin 64) (r j : Fin 1024) :
    val_main_v3 (F := Ideal) Q K M (ix3 b r j) = row Q K M b r j := by
  rw [val_main_v3_apply, val_main_call0_v1_apply, val_main_call0_v0_apply, val_main_cst_0_apply, val_main_v2_apply,
    val_main_v0_apply, val_main_v1_apply, val_main_cst_apply]
  simp only [Ideal.hostDivf_def, Ideal.ofBits_def, div_eight, lidx_v0, ridx_v0]
  rfl

/-- The index over (b, r) with coordinate j inserted on the last axis is (b, r, j). -/
theorem lift_d2 (h : S64x1024x1024.Reduces [2] S64x1024) (b : Fin 64) (r j : Fin 1024) :
    h.lift (ix2 b r) j = ix3 b r j :=
  funext fun a => Fin.ext (by match a with | ⟨0, _⟩ => rfl | ⟨1, _⟩ => rfl | ⟨2, _⟩ => rfl)

/-- The row maximum: the fold of max over the keys from the pattern of minus infinity, and the maximum with that
    pattern once more, which changes nothing. -/
theorem rowmax_apply (Q K : (⟨S64x1024x64, .f32⟩ : BufTy).Contents (Elt Ideal)) (M : (⟨S64x1024x1024, .i1⟩ : BufTy).Contents (Elt Ideal))
    (b : Fin 64) (r : Fin 1024) :
    val_main_v6 (F := Ideal) Q K M (ix2 b r) = rowMax (row Q K M b r) := by
  have h : S64x1024x1024.Reduces [2] S64x1024 := by decide
  rw [val_main_v6_apply, val_main_v5_apply, val_main_cst_2_apply]
  unfold val_main_v4
  rw [Host.reduce_eq_fold_single FloatOps.maximumf _ _ reducesTo_S64x1024x1024_S64x1024_d2 h h_S_, val_main_cst_1_apply]
  have e : (val_main_v3 (F := Ideal) Q K M ∘ h.lift (ix2 b r)) = row Q K M b r :=
    funext fun (j : Fin 1024) =>
      (congrArg (val_main_v3 (F := Ideal) Q K M) (lift_d2 h b r j)).trans (scores_apply Q K M b r j)
  rw [e]
  exact max_floor_rowMax _

/-- The exponentials: the row maximum, broadcast back along the keys, is subtracted from each score. -/
theorem exps_apply (Q K : (⟨S64x1024x64, .f32⟩ : BufTy).Contents (Elt Ideal)) (M : (⟨S64x1024x1024, .i1⟩ : BufTy).Contents (Elt Ideal))
    (b : Fin 64) (r j : Fin 1024) :
    val_main_v10 (F := Ideal) Q K M (ix3 b r j) = Ideal.exp (row Q K M b r j - rowMax (row Q K M b r)) := by
  rw [val_main_v10_apply, val_main_v9_apply, val_main_v8_apply, val_main_v7_apply, idx_v78, rowmax_apply, scores_apply]
  simp only [Ideal.hostUnary_exp_def, Ideal.subf_def]

/-- The normaliser: the sum of the row's exponentials (the sum starts from the pattern of zero, which is 0). -/
theorem sum_apply (Q K : (⟨S64x1024x64, .f32⟩ : BufTy).Contents (Elt Ideal)) (M : (⟨S64x1024x1024, .i1⟩ : BufTy).Contents (Elt Ideal))
    (b : Fin 64) (r : Fin 1024) :
    val_main_v11 (F := Ideal) Q K M (ix2 b r) = ∑ j : Fin 1024, Ideal.exp (row Q K M b r j - rowMax (row Q K M b r)) := by
  rw [val_main_v11_apply, val_main_cst_3_apply]
  simp only [Ideal.ofBits_def, Ideal.ofBits_zero_f32, zero_add, idx_v11, exps_apply]

/-- The weights: each exponential over the row's normaliser, broadcast back along the keys. -/
theorem weights_apply (Q K : (⟨S64x1024x64, .f32⟩ : BufTy).Contents (Elt Ideal)) (M : (⟨S64x1024x1024, .i1⟩ : BufTy).Contents (Elt Ideal))
    (b : Fin 64) (r j : Fin 1024) :
    val_main_v14 (F := Ideal) Q K M (ix3 b r j) = softmax (row Q K M b r) j := by
  rw [val_main_v14_apply, val_main_v13_apply, val_main_v12_apply, idx_v1213, sum_apply, exps_apply]
  simp only [Ideal.hostDivf_def]
  rfl

/-! ## The two results -/

/-- The reference's weights are the specification's attention matrix. -/
theorem weights_eq (Q K : (⟨S64x1024x64, .f32⟩ : BufTy).Contents (Elt Ideal)) (M : (⟨S64x1024x1024, .i1⟩ : BufTy).Contents (Elt Ideal)) :
    Cert.ReferenceIdeal.Read.val_main_v14 (F := Ideal) Q K M = Cert.Attention.attn Q K M := by
  funext i
  obtain ⟨b, r, j, rfl⟩ : ∃ (b : Fin 64) (r : Fin 1024) (j : Fin 1024), i = ix3 b r j := ⟨i 0, i 1, i 2, eq_ix3 i⟩
  rw [weights_apply]
  rfl

/-- The reference's output is the specification's: the weights against the value rows, summed over the keys. -/
theorem output_eq (Q K V : (⟨S64x1024x64, .f32⟩ : BufTy).Contents (Elt Ideal)) (M : (⟨S64x1024x1024, .i1⟩ : BufTy).Contents (Elt Ideal)) :
    Cert.ReferenceIdeal.Read.val_main_v15 (F := Ideal) Q K V M = Cert.Attention.out Q K V M := by
  funext i
  obtain ⟨b, r, d, rfl⟩ : ∃ (b : Fin 64) (r : Fin 1024) (d : Fin 64), i = ix3 b r d := ⟨i 0, i 1, i 2, eq_ix3 i⟩
  rw [val_main_v15_apply, weights_eq]
  refine Finset.sum_congr rfl fun j _ => ?_
  rw [lidx_v15, ridx_v15]

end Cert.ReferenceIdeal.RefValue

end
-- ==== Proof.lean ====
/-
  Masked scaled dot-product attention on 64 batches of 1024 queries and keys with 64 features: the kernel, one grid
  point per batch, forms q kᵀ · 0.125, writes the fill value -1e9 where the mask is set, takes the softmax of each
  row (exp of the score minus the row's greatest score, divided by the row's sum) and multiplies the weights with
  the values; the reference does the same on whole arrays with a quotient by 8, an extra maximum with minus infinity
  and the mask used as a bit rather than as a widened word.

  Read as extended reals both programs end with the same two arrays, the weights and the output. The two differ in
  four places, none of which needs the inputs finite: x / 8 = x · 0.125 on every extended real; the greatest entry of
  a row taken from minus infinity is at least minus infinity, so one more maximum with it changes nothing; a sum from
  0 is the sum; and a bit widened to a word is not zero exactly where the bit is set. A matrix product into a zero
  accumulator is the host's contraction, a lane reduction is the host's reduction over the same axis, and a change
  of float format is the identity.

  The kernel's arrays after its run are read block by block (one block per batch) and each block at an element; the
  reference's results are read operation by operation at an element; both are the functions of Proof/Spec.lean.
  The idealization rewrote no operation of the kernel, so there is nothing to preserve.
-/
import proofs.«174749_j31842887533219_2_alg».proof.Defs
import proofs.«174749_j31842887533219_2_alg».proof.Proof.Gen.Kernel
import proofs.«174749_j31842887533219_2_alg».proof.Proof.Gen.Kernel.Skeleton
import proofs.«174749_j31842887533219_2_alg».proof.Proof.Gen.Kernel.Launch
import proofs.«174749_j31842887533219_2_alg».proof.Proof.Gen.Kernel.Points
import proofs.«174749_j31842887533219_2_alg».proof.Proof.Gen.Kernel.Frame
import proofs.«174749_j31842887533219_2_alg».proof.Proof.Gen.KernelIdeal
import proofs.«174749_j31842887533219_2_alg».proof.Proof.Gen.KernelIdeal.Skeleton
import proofs.«174749_j31842887533219_2_alg».proof.Proof.Gen.KernelIdeal.Launch
import proofs.«174749_j31842887533219_2_alg».proof.Proof.Gen.KernelIdeal.Points
import proofs.«174749_j31842887533219_2_alg».proof.Proof.Gen.KernelIdeal.Frame
import proofs.«174749_j31842887533219_2_alg».proof.Proof.Gen.ReferenceIdeal
import proofs.«174749_j31842887533219_2_alg».proof.Proof.Gen.Pre_finite_inputs
import proofs.«174749_j31842887533219_2_alg».proof.Proof.Gen.KernelIdeal.Value
import proofs.«174749_j31842887533219_2_alg».proof.Proof.Gen.ReferenceIdeal.Run
import proofs.«174749_j31842887533219_2_alg».proof.Proof.Gen.ReferenceIdeal.Read
import proofs.«174749_j31842887533219_2_alg».proof.Proof.Spec
import proofs.«174749_j31842887533219_2_alg».proof.Proof.Blocks
import proofs.«174749_j31842887533219_2_alg».proof.Proof.Reference
import Idealize.ShloMosaic.Adequacy
import Idealize.ShloMosaic.Init

noncomputable section

namespace Cert.Proof

open Idealize.ShloMosaic Idealize.ShloMosaic.TcCoe Idealize.SL.Sem

namespace AttentionClaims

/-- The kernel as printed runs and leaves its arguments as they were. -/
theorem frame_kernel : Cert.frame_Kernel := fun m ρ _ => Cert.Kernel.Gen.frame m ρ

/-- So does the kernel read at extended reals. -/
theorem frame_kernelIdeal : Cert.frame_KernelIdeal := fun m ρ _ => Cert.KernelIdeal.Gen.frame m ρ

/-- The reference runs and leaves its arguments as they were: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation of the kernel was rewritten. -/
theorem preserves : Cert.preserves_Kernel_KernelIdeal := trivial

/-- From memories that agree on q, k, v and the mask, the kernel's output and weights arrays and the reference's
    two results are the same functions of them: the sum over the keys of the softmax weights times the values,
    and the softmax of the masked scaled scores. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v15_eq, Cert.ReferenceIdeal.RefValue.output_eq,
      (hagree c).1, (hagree c).2.1, (hagree c).2.2.1, (hagree c).2.2.2]
  · rw [(h c).2.1, Cert.ReferenceIdeal.Read.val_main_v14_eq, Cert.ReferenceIdeal.RefValue.weights_eq,
      (hagree c).1, (hagree c).2.1, (hagree c).2.2.2]

end AttentionClaims

theorem claim : Cert.Claim := ⟨Cert.Kernel.Gen.facts, Cert.KernelIdeal.Gen.facts, Cert.ReferenceIdeal.Gen.facts, Cert.Pre_finite_inputs.Gen.facts,
  AttentionClaims.frame_kernel, AttentionClaims.frame_kernelIdeal, AttentionClaims.frame_reference, AttentionClaims.preserves, AttentionClaims.algebraic⟩

end Cert.Proof

end
